-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x384 : Shape := ⟨2, ![131072, 384]⟩
abbrev S384 : Shape := ⟨1, ![384]⟩
abbrev S_ : Shape := ⟨0, ![]⟩

class Facts : Prop where
  bcast_S_S131072x384 : S_.BroadcastsInDim S131072x384 (![] : Fin 0 → Fin S131072x384.rank)
  reducesTo_S131072x384_S_d0_1 : S131072x384.ReducesTo [0, 1] S_
  h_S_ : 0 < S_.numel
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  main_v18

def fn {F : FTy → Type} [FloatOps F] (main_arg0 : FVec F S131072x384 .f32) (main_arg1 : FVec F S131072x384 .f32) (main_arg2 : FVec F S131072x384 .f32) (main_arg3 : FVec F S384 .f32) : IVec S_ 1 :=
  let main_v0 : FVec F S131072x384 .f32 := Host.absf main_arg0
  let main_cst : FVec F S_ .f32 := constant S_ .f32 0x7F800000#32
  let main_v1 : FVec F S131072x384 .f32 := broadcastInDim S131072x384 ![] bcast_S_S131072x384 main_cst
  let main_v2 : IVec S131072x384 1 := cmpf .olt main_v0 main_v1
  let main_c : IVec S_ 1 := constantI S_ 1 1#1
  let main_v3 : IVec S_ 1 := (fun x v => Host.reduce IntOp.andi x v reducesTo_S131072x384_S_d0_1 h_S_) main_v2 main_c
  let main_v4 : FVec F S131072x384 .f32 := Host.absf main_arg1
  let main_cst_0 : FVec F S_ .f32 := constant S_ .f32 0x7F800000#32
  let main_v5 : FVec F S131072x384 .f32 := broadcastInDim S131072x384 ![] bcast_S_S131072x384 main_cst_0
  let main_v6 : IVec S131072x384 1 := cmpf .olt main_v4 main_v5
  let main_c_1 : IVec S_ 1 := constantI S_ 1 1#1
  let main_v7 : IVec S_ 1 := (fun x v => Host.reduce IntOp.andi x v reducesTo_S131072x384_S_d0_1 h_S_) main_v6 main_c_1
  let main_v8 : IVec S_ 1 := andi main_v3 main_v7
  let main_v9 : FVec F S131072x384 .f32 := Host.absf main_arg2
  let main_cst_2 : FVec F S_ .f32 := constant S_ .f32 0x7F800000#32
  let main_v10 : FVec F S131072x384 .f32 := broadcastInDim S131072x384 ![] bcast_S_S131072x384 main_cst_2
  let main_v11 : IVec S131072x384 1 := cmpf .olt main_v9 main_v10
  let main_c_3 : IVec S_ 1 := constantI S_ 1 1#1
  let main_v12 : IVec S_ 1 := (fun x v => Host.reduce IntOp.andi x v reducesTo_S131072x384_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_v13 main_v16
-- ==== Kernel.lean ====
abbrev S131072x384 : Shape := ⟨2, ![131072, 384]⟩
abbrev S384 : Shape := ⟨1, ![384]⟩
abbrev S1x384 : Shape := ⟨2, ![1, 384]⟩
abbrev S16x128 : Shape := ⟨2, ![16, 128]⟩
abbrev S2048x384 : Shape := ⟨2, ![2048, 384]⟩
abbrev S8x128 : Shape := ⟨2, ![8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S131072x384, .f32⟩
  | .hbm, ⟨1, _⟩ => ⟨S131072x384, .f32⟩
  | .hbm, ⟨2, _⟩ => ⟨S131072x384, .f32⟩
  | .hbm, ⟨3, _⟩ => ⟨S384, .f32⟩
  | .hbm, ⟨4, _⟩ => ⟨S384, .f32⟩
  | .hbm, ⟨5, _⟩ => ⟨S1x384, .f32⟩
  | .hbm, ⟨6, _⟩ => ⟨S16x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S1x384, .f32⟩
  | .local _ .vmem, ⟨7, _⟩ => ⟨S8x128, .f32⟩
  | .local _ .vmem, ⟨8, _⟩ => ⟨S8x128, .f32⟩
  | _, _ => ⟨S131072x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S384_S1x384 : S384.ShapeCasts S1x384
  inb_S8x128_S8x128_0_0 : ∀ a, (![0, 0] : Fin 2 → Nat) a + S8x128.size a ≤ S8x128.size a
  h_S8x128 : 0 < S8x128.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S2048x384_S2048x384_0_0 : ∀ a, (![0, 0] : Fin 2 → Nat) a + S2048x384.size a ≤ S2048x384.size a
  h_S2048x384 : 0 < S2048x384.numel
  broadcasts_S1x384_S2048x384 : S1x384.Broadcasts S2048x384
  reduces_S2048x384_S2048 : S2048x384.Reduces [1] S2048
  shapeCasts_S2048_S2048x1 : S2048.ShapeCasts S2048x1
  reduces_S2048x1_S1 : S2048x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S131072x384.size a
  hwx0_0 : ∀ i : grid0.Coords, EltTy.bits .f32 = 32 ∨ (Rect.block (s := S131072x384) S2048x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S131072x384.size a
  hwx0_1 : ∀ i : grid0.Coords, EltTy.bits .f32 = 32 ∨ (Rect.block (s := S131072x384) S2048x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x384.size a ≤ S131072x384.size a
  hwx0_2 : ∀ i : grid0.Coords, EltTy.bits .f32 = 32 ∨ (Rect.block (s := S131072x384) S2048x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_arg0) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x384 : Shape := ⟨2, ![131072, 384]⟩
abbrev S384 : Shape := ⟨1, ![384]⟩
abbrev S_ : Shape := ⟨0, ![]⟩
abbrev S1x384 : Shape := ⟨2, ![1, 384]⟩
abbrev S131072 : Shape := ⟨1, ![131072]⟩

abbrev nBuf : Space → Nat
  | .hbm => 30
  | .vmem => 0
  | .smem => 0
  | _ => 0

abbrev bufTy : (tb : Table) → Fin (tcTables nBuf tb) → BufTy
  | .hbm, ⟨0, _⟩ => ⟨S131072x384, .f32⟩
  | .hbm, ⟨1, _⟩ => ⟨S131072x384, .f32⟩
  | .hbm, ⟨2, _⟩ => ⟨S131072x384, .f32⟩
  | .hbm, ⟨3, _⟩ => ⟨S384, .f32⟩
  | .hbm, ⟨4, _⟩ => ⟨S_, .f32⟩
  | .hbm, ⟨5, _⟩ => ⟨S384, .f32⟩
  | .hbm, ⟨6, _⟩ => ⟨S131072x384, .f32⟩
  | .hbm, ⟨7, _⟩ => ⟨S131072x384, .f32⟩
  | .hbm, ⟨8, _⟩ => ⟨S1x384, .f32⟩
  | .hbm, ⟨9, _⟩ => ⟨S131072x384, .f32⟩
  | .hbm, ⟨10, _⟩ => ⟨S131072x384, .f32⟩
  | .hbm, ⟨11, _⟩ => ⟨S_, .f32⟩
  | .hbm, ⟨12, _⟩ => ⟨S131072, .f32⟩
  | .hbm, ⟨13, _⟩ => ⟨S131072x384, .f32⟩
  | .hbm, ⟨14, _⟩ => ⟨S131072x384, .f32⟩
  | .hbm, ⟨15, _⟩ => ⟨S1x384, .f32⟩
  | .hbm, ⟨16, _⟩ => ⟨S131072x384, .f32⟩
  | .hbm, ⟨17, _⟩ => ⟨S131072x384, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S131072, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S131072x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  reducesTo_S131072x384_S131072_d1 : S131072x384.ReducesTo [1] S131072
  h_S_ : 0 < S_.numel
  bcast_S_S131072 : S_.BroadcastsInDim S131072 (![] : Fin 0 → Fin S131072.rank)
  reducesTo_S131072_S_d0 : S131072.ReducesTo [0] S_

variable [Facts₀]

class Facts : Prop extends Facts₀ where

variable [Facts]
-- ==== Proof.LibBlockSum.lean ====
/-
  A finite sum taken in consecutive blocks.

  A sum over the first n naturals can be built up block by block: the sum of the first a terms plus the sum of the next
  b terms is the sum of the first a + b terms. For a family g indexed by the numbers below n, extended by zero to all
  naturals, this gives the step used when a long contraction is accumulated in consecutive blocks of a fixed length: the
  partial sum over the first a indices, plus a block of b terms that are the family's terms at a, a + 1, …, a + b - 1,
  is the partial sum over the first a + b indices; and the partial sum over all n indices is the sum of the family.
  Only commutativity and associativity of the addition are used, so the statements hold in any commutative additive
  monoid — the extended reals with their infinities included.
-/
import Mathlib.Algebra.BigOperators.Fin
import Mathlib.Data.Fintype.BigOperators

open scoped BigOperators

namespace Cert.Lib.BlockSum

variable {M : Type*} [AddCommMonoid M]

/-- The sum of the first `a` terms plus the sum of the next `b` terms is the sum of the first `a + b` terms. -/
theorem prefix_add_block (f : ℕ → M) (a b : ℕ) :
    (∑ x ∈ Finset.range a, f x) + ∑ j : Fin b, f (a + j.val) = ∑ x ∈ Finset.range (a + b), f x := by
  rw [Finset.sum_range_add, Fin.sum_univ_eq_sum_range (fun x => f (a + x)) b]

/-- A family on the numbers below `n`, extended by zero to every natural. -/
def ext0 {n : ℕ} (g : Fin n → M) (x : ℕ) : M := if h : x < n then g ⟨x, h⟩ else 0

theorem ext0_of_lt {n : ℕ} (g : Fin n → M) (x : ℕ) (h : x < n) : ext0 g x = g ⟨x, h⟩ := dif_pos h

/-- The partial sum of a family over the first `a` indices. -/
def upTo {n : ℕ} (g : Fin n → M) (a : ℕ) : M := ∑ x ∈ Finset.range a, ext0 g x

theorem upTo_zero {n : ℕ} (g : Fin n → M) : upTo g 0 = 0 := Finset.sum_range_zero _

/-- ONE BLOCK MORE: the partial sum over the first `a` indices plus `b` terms that are the family's terms at
    `a, …, a + b - 1` is the partial sum over the first `a + b` indices. -/
theorem upTo_add_block {n : ℕ} (g : Fin n → M) (a b : ℕ) (hab : a + b ≤ n) (blk : Fin b → M)
    (hblk : ∀ j : Fin b, blk j = g ⟨a + j.val, Nat.lt_of_lt_of_le (Nat.add_lt_add_left j.isLt a) hab⟩) :
    upTo g a + ∑ j : Fin b, blk j = upTo g (a + b) := by
  unfold upTo
  rw [← prefix_add_block]
  congr 1
  refine Finset.sum_congr rfl fun j _ => ?_
  rw [hblk j, ext0_of_lt]

/-- The partial sum over all the indices is the family's sum. -/
theorem upTo_all {n : ℕ} (g : Fin n → M) : upTo g n = ∑ k : Fin n, g k := by
  unfold upTo
  rw [Finset.sum_range]
  exact Finset.sum_congr rfl fun k _ => ext0_of_lt g k.val k.isLt

end Cert.Lib.BlockSum
-- ==== Proof.Spec.lean ====
/-
  The weighted triplet loss as one function of the argument arrays, on the extended reals, and the algebra of
  summing it block by block.

  For a weight vector w (the exponential of the fourth argument), an anchor row a, a positive row p and a negative
  row n of length 384, a row's loss is

      max (Σ_d w_d (a_d - p_d)² - Σ_d w_d (a_d - n_d)² + 1, 0),

  and the result is the sum of the 131072 rows' losses divided by 131072. Two facts about sums are all that is
  needed to compare two ways of computing it. A square w·(x·x) may be grouped (w·x)·x: multiplication of extended
  reals is associative. And the sum over the rows may be taken as two halves of 32 consecutive blocks of 2048 rows,
  each half accumulated block after block from its own first block: addition of extended reals is commutative and
  associative, infinities included, so no finiteness is asked anywhere.
-/
import Idealize.ShloMosaic.PureOps.Ideal
import Idealize.ShloMosaic.Lib.ValueIdx
import proofs.«169795_j4234837754127_2_alg».proof.Proof.LibBlockSum

noncomputable section

namespace Cert.Triplet

open Idealize.ShloMosaic Idealize.ShloMosaic.ValueIdx
open Cert.Lib.BlockSum

/-- The shape of the three row arrays and of the weight vector. -/
abbrev SRows : Shape := ⟨2, ![131072, 384]⟩
abbrev SWeights : Shape := ⟨1, ![384]⟩

/-- The weighted squared distance of two rows: Σ_d w_d · ((x_d - y_d) · (x_d - y_d)). -/
def wdist (w x y : Fin 384 → EReal) : EReal := ∑ d : Fin 384, w d * ((x d - y d) * (x d - y d))

/-- The same sum with each term grouped (w_d · (x_d - y_d)) · (x_d - y_d). -/
theorem wdist_grouped (w x y : Fin 384 → EReal) :
    (∑ d : Fin 384, w d * (x d - y d) * (x d - y d)) = wdist w x y :=
  Finset.sum_congr rfl fun d _ => mul_assoc _ _ _

/-- A row's loss: the positive distance minus the negative distance plus the margin (the float word of 1.0),
    clamped at zero. -/
def hinge (w a p n : Fin 384 → EReal) : EReal :=
  max (wdist w a p - wdist w a n + Ideal.ofBits .f32 0x3F800000#32) 0

/-- Row r's loss, of the whole arrays. -/
def rowLoss (A P N : SRows.Idx → EReal) (W : SWeights.Idx → EReal) (r : Fin 131072) : EReal :=
  hinge (fun d => Ideal.exp (W (ix1 d))) (fun d => A (ix2 r d)) (fun d => P (ix2 r d)) (fun d => N (ix2 r d))

/-- The result: the rows' losses summed, divided by the float word of 131072.0. -/
def result (A P N : SRows.Idx → EReal) (W : SWeights.Idx → EReal) : (⟨0, ![]⟩ : Shape).Idx → EReal :=
  fun _ => Ideal.div (∑ r : Fin 131072, rowLoss A P N W r) (Ideal.ofBits .f32 0x48000000#32)

/-! ## Accumulating 64 blocks of 2048 terms in two runs of 32 -/

/-- The sum of block b's 2048 terms. -/
def blockSum (f : ℕ → EReal) (b : ℕ) : EReal := ∑ q : Fin 2048, f (2048 * b + q.val)

/-- The running value after block n when a run restarts at every 32nd block: at a first block the block's sum alone,
    otherwise the value so far plus the block's sum. -/
def acc (f : ℕ → EReal) : ℕ → EReal
  | 0 => blockSum f 0
  | n + 1 => if (n + 1) % 32 = 0 then blockSum f (n + 1) else acc f n + blockSum f (n + 1)

theorem acc_first (f : ℕ → EReal) (n : ℕ) (h : n % 32 = 0) : acc f n = blockSum f n := by
  cases n with
  | zero => rfl
  | succ n => exact if_pos h

theorem acc_next (f : ℕ → EReal) (n : ℕ) (h : ¬n % 32 = 0) : acc f n = acc f (n - 1) + blockSum f n := by
  cases n with
  | zero => exact absurd (Nat.zero_mod _) h
  | succ n => exact if_neg h

/-- After block n the running value is the sum of the terms of its run so far: those from the run's first term,
    65536 · (n / 32), up to the end of block n. -/
theorem acc_eq (f : ℕ → EReal) : ∀ n : ℕ,
    acc f n = ∑ x ∈ Finset.range (2048 * (n % 32 + 1)), f (65536 * (n / 32) + x)
  | 0 => by
    rw [acc_first f 0 rfl]
    unfold blockSum
    rw [Fin.sum_univ_eq_sum_range (fun x => f (2048 * 0 + x)) 2048]
  | n + 1 => by
    by_cases h : (n + 1) % 32 = 0
    · rw [acc_first f _ h, h]
      unfold blockSum
      rw [Fin.sum_univ_eq_sum_range (fun x => f (2048 * (n + 1) + x)) 2048]
      refine Finset.sum_congr rfl fun x _ => congrArg f ?_
      omega
    · rw [acc_next f _ h, Nat.add_sub_cancel, acc_eq f n]
      have h1 : (n + 1) / 32 = n / 32 := by omega
      have h2 : (n + 1) % 32 = n % 32 + 1 := by omega
      rw [h1, h2]
      unfold blockSum
      have e := prefix_add_block (fun x => f (65536 * (n / 32) + x)) (2048 * (n % 32 + 1)) 2048
      rw [show 2048 * (n % 32 + 1 + 1) = 2048 * (n % 32 + 1) + 2048 from by ring, ← e]
      refine congrArg (_ + ·) (Finset.sum_congr rfl fun q _ => congrArg f ?_)
      omega

/-- The two runs' last values together are the sum of all 131072 terms. -/
theorem acc_total (f : ℕ → EReal) : acc f 31 + acc f 63 = ∑ x ∈ Finset.range 131072, f x := by
  rw [acc_eq f 31, acc_eq f 63]
  have e := prefix_add_block f 65536 65536
  rw [Fin.sum_univ_eq_sum_range (fun x => f (65536 + x)) 65536] at e
  rw [← e]
  refine congrArg₂ (· + ·) (Finset.sum_congr rfl fun x _ => congrArg f ?_) (Finset.sum_congr rfl fun x _ => congrArg f ?_)
  · show 65536 * (31 / 32) + x = x
    omega
  · show 65536 * (63 / 32) + x = 65536 + x
    omega

/-- For a family on the rows extended by zero, that is the sum of the family. -/
theorem acc_total_rows (g : Fin 131072 → EReal) : acc (ext0 g) 31 + acc (ext0 g) 63 = ∑ r : Fin 131072, g r := by
  rw [acc_total]
  exact upTo_all g

end Cert.Triplet

end
-- ==== Proof.RefValue.lean ====
/-
  The reference computes the specification: read one operation at a time, its result is the sum over the 131072
  rows of the row losses divided by 131072. Each row's value is max (d_pos - d_neg + 1, 0) with
  d = 0 + Σ_d exp(W_d) · ((a_d - b_d) · (a_d - b_d)); the leading zeros are the sums' initial values.
-/
import proofs.«169795_j4234837754127_2_alg».proof.Proof.Gen.ReferenceIdeal.Read
import proofs.«169795_j4234837754127_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.Triplet

/-- The indices of a one-axis shape are the numbers below its extent. -/
def idxEquiv1 (n : ℕ) : (⟨1, ![n]⟩ : Shape).Idx ≃ Fin n where
  toFun j := j 0
  invFun := ix1
  left_inv j := (eq_ix1 j).symm
  right_inv _ := rfl

theorem idx6 (r : Fin 131072) (k : Fin 384) : idx_main_v6 (ix1 r) k = ix2 r k :=
  funext fun a => by match a with | ⟨0, _⟩ => rfl | ⟨1, _⟩ => rfl
theorem idx12 (r : Fin 131072) (k : Fin 384) : idx_main_v12 (ix1 r) k = ix2 r k :=
  funext fun a => by match a with | ⟨0, _⟩ => rfl | ⟨1, _⟩ => rfl
theorem idx34 (r : Fin 131072) (k : Fin 384) : idx_main_v3 (idx_main_v4 (ix2 r k)) = ix1 k :=
  funext fun a => by match a with | ⟨0, _⟩ => rfl
theorem idx910 (r : Fin 131072) (k : Fin 384) : idx_main_v9 (idx_main_v10 (ix2 r k)) = ix1 k :=
  funext fun a => by match a with | ⟨0, _⟩ => rfl

/-- Row r of the clamped column is row r's loss. -/
theorem row_eq (x0 x1 x2 : (⟨S131072x384, .f32⟩ : BufTy).Contents (Elt Ideal)) (x3 : (⟨S384, .f32⟩ : BufTy).Contents (Elt Ideal))
    (r : Fin 131072) : val_main_v16 (F := Ideal) x0 x1 x2 x3 (ix1 r) = rowLoss x0 x1 x2 x3 r := by
  rw [val_main_v16_apply, val_main_v15_apply, val_main_v13_apply, val_main_v6_apply, val_main_v12_apply,
    val_main_v14_apply, val_main_cst_apply, val_main_call0_v0_apply, val_main_call0_cst_apply, val_main_cst_0_apply,
    val_main_cst_1_apply]
  simp only [idx6, idx12, val_main_v5_apply, val_main_v11_apply, val_main_v4_apply, val_main_v10_apply, val_main_v3_apply,
    val_main_v9_apply, idx34, idx910, val_main_v0_apply, val_main_v2_apply, val_main_v8_apply, val_main_v1_apply,
    val_main_v7_apply]
  simp only [Ideal.ofBits_def, Ideal.addf_def, Ideal.subf_def, Ideal.mulf_def, Ideal.maximumf_def, Ideal.hostUnary_exp_def,
    Ideal.ofBits_zero_f32, zero_add]
  rfl

/-- The reference's result is the specification's. -/
theorem ref_eq (x0 x1 x2 : (⟨S131072x384, .f32⟩ : BufTy).Contents (Elt Ideal)) (x3 : (⟨S384, .f32⟩ : BufTy).Contents (Elt Ideal)) :
    val_main_v18 (F := Ideal) x0 x1 x2 x3 = result x0 x1 x2 x3 := by
  have hs : (∑ j : S131072.Idx, val_main_v16 (F := Ideal) x0 x1 x2 x3 j) = ∑ r : Fin 131072, rowLoss x0 x1 x2 x3 r :=
    Fintype.sum_equiv (idxEquiv1 131072) (fun j => val_main_v16 (F := Ideal) x0 x1 x2 x3 j) (fun r => rowLoss x0 x1 x2 x3 r) fun j =>
      (congrArg (val_main_v16 (F := Ideal) x0 x1 x2 x3) (eq_ix1 j)).trans (row_eq x0 x1 x2 x3 (j 0))
  funext i
  rw [val_main_v18_apply, val_main_v17_apply, val_main_cst_2_apply, val_main_cst_3_apply, hs]
  simp only [Ideal.hostDivf_def, Ideal.ofBits_def, Ideal.ofBits_zero_f32, zero_add]
  unfold result
  rfl

end Cert.ReferenceIdeal.RefValue

end
-- ==== Proof.LibColumnLayout.lean ====
/-
  Column forms of two layout operations, read at an index, and the two float words a rectifier and a logistic spell.

  A length-a vector reshaped to an a-by-1 column keeps its entries in order, so the column's entry (i, 0) is the
  vector's entry i. An a-by-1 column broadcast along a new second axis of extent b repeats each entry along its row,
  so the entry (p, c) of the result is the column's entry (p, 0). (The row forms — a leading unit axis, and a 1-by-b row
  repeated down a columns — are the library's.) The float words 0x00000000 and 0x3F800000 denote the reals 0 and 1.
-/
import Idealize.ShloMosaic.Lib.Pipeline.Value
import Idealize.ShloMosaic.Lib.ValueIdx
import Idealize.ShloMosaic.Lib.ValueLayout
import Idealize.ShloMosaic.PureOps.Ideal

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of `+0.0` denotes the real zero. -/
theorem ofBits_zero : Ideal.ofBits .f32 0x00000000#32 = 0 := by
  simp [Ideal.ofBits, Ideal.ieee]

/-- The word of `1.0` denotes the real one. -/
theorem ofBits_one : Ideal.ofBits .f32 0x3F800000#32 = 1 := by
  simp [Ideal.ofBits, Ideal.ieee, -EReal.coe_mul]; norm_num

end Cert.Lib.Column

end
-- ==== Proof.Payload.lean ====
/-
  The body's arithmetic at the one element it stores, on the extended reals.

  The body holds a block of 2048 anchor, positive and negative rows (x0, x1, x2), the weight row x3, and one running
  value. It forms, row by row, the weighted squared distances Σ_d (w_d (a_d - p_d)) (a_d - p_d) and
  Σ_d (w_d (a_d - n_d)) (a_d - n_d), their difference plus the margin clamped at zero, sums the 2048 clamped values,
  and adds the running value. Read at the stored element this is: the running value plus the sum over the block's
  rows of the row losses (with each square grouped (w·x)·x).
-/
import proofs.«169795_j4234837754127_2_alg».proof.Proof.Gen.KernelIdeal.Skeleton
import proofs.«169795_j4234837754127_2_alg».proof.Proof.LibColumnLayout
import proofs.«169795_j4234837754127_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Triplet

/-- Row q's sum over the 384 lanes of (w ⊙ v) ⊙ v, w the weight row repeated down the block. -/
def laneSums (x3 : FVec Ideal S1x384 .f32) (v : FVec Ideal S2048x384 .f32) : FVec Ideal S2048 .f32 :=
  multiReduction .add [1] S2048
    (mulf (mulf (broadcastTo S2048x384 (shapeCast S1x384 x3 shapeCasts_S1x384_S1x384) broadcasts_S1x384_S2048x384) v) v)
    0x00000000#32 reduces_S2048x384_S2048 (.inl rfl) rfl

theorem laneSums_apply (x3 : FVec Ideal S1x384 .f32) (v : FVec Ideal S2048x384 .f32) (q : Fin 2048) :
    laneSums x3 v (ix1 q) = ∑ d : Fin 384, x3 (ix2 (0 : Fin 1) d) * v (ix2 q d) * v (ix2 q d) := by
  unfold laneSums
  have key : ∀ d : Fin 384,
      (mulf (mulf (broadcastTo S2048x384 (shapeCast S1x384 x3 shapeCasts_S1x384_S1x384) broadcasts_S1x384_S2048x384) v) v)
        (reduces_S2048x384_S2048.lift (ix1 q) d) = x3 (ix2 (0 : Fin 1) d) * v (ix2 q d) * v (ix2 q d) := fun d => by
    have e : reduces_S2048x384_S2048.lift (ix1 q) d = ix2 q d :=
      funext fun a => Fin.ext (by match a with | ⟨0, _⟩ => rfl | ⟨1, _⟩ => rfl)
    rw [e]
    show broadcastTo S2048x384 (shapeCast S1x384 x3 shapeCasts_S1x384_S1x384) broadcasts_S1x384_S2048x384 (ix2 q d) * v (ix2 q d) * v (ix2 q d) = _
    rw [broadcastTo_1b_ab_apply, shapeCast_self]
  refine (Ideal.multiReduction_add_single _ _ reduces_S2048x384_S2048 _ _ (ix1 q)).trans ?_
  exact Finset.sum_congr rfl fun d _ => key d

/-- The column of clamped row values: (lane sums against the positive rows) - (against the negative rows) + 1.0,
    clamped at zero. -/
def lossColumn (x3 : FVec Ideal S1x384 .f32) (x0 x1 x2 : FVec Ideal S2048x384 .f32) : FVec Ideal S2048x1 .f32 :=
  maximumf
    (addf
      (subf (shapeCast S2048x1 (laneSums x3 (subf x0 x1)) shapeCasts_S2048_S2048x1)
        (shapeCast S2048x1 (laneSums x3 (subf x0 x2)) shapeCasts_S2048_S2048x1))
      (broadcast S2048x1 (Scalar.ofBits .f32 0x3F800000#32)))
    (broadcast S2048x1 (Scalar.ofBits .f32 0x00000000#32))

theorem lossColumn_apply (x3 : FVec Ideal S1x384 .f32) (x0 x1 x2 : FVec Ideal S2048x384 .f32) (q : Fin 2048) :
    lossColumn x3 x0 x1 x2 (ix2 q (0 : Fin 1))
      = hinge (fun d => x3 (ix2 (0 : Fin 1) d)) (fun d => x0 (ix2 q d)) (fun d => x1 (ix2 q d)) (fun d => x2 (ix2 q d)) := by
  unfold lossColumn
  show max (shapeCast S2048x1 (laneSums x3 (subf x0 x1)) shapeCasts_S2048_S2048x1 (ix2 q (0 : Fin 1))
        - shapeCast S2048x1 (laneSums x3 (subf x0 x2)) shapeCasts_S2048_S2048x1 (ix2 q (0 : Fin 1))
        + Ideal.ofBits .f32 0x3F800000#32) (Ideal.ofBits .f32 0x00000000#32) = _
  rw [Cert.Lib.Column.shapeCast_a_a1_apply, Cert.Lib.Column.shapeCast_a_a1_apply, laneSums_apply, laneSums_apply,
    Ideal.ofBits_zero_f32]
  unfold hinge
  rw [← wdist_grouped, ← wdist_grouped]
  rfl

/-- The body's stored value, in these words. -/
theorem pay2_eq (x3 : Vec Ideal S1x384 .f32) (x0 x1 x2 : Vec Ideal S2048x384 .f32) (v27 : Vec Ideal S1x1 .f32) :
    k0_pay2 x3 x0 x1 x2 v27
      = addf (shapeCast S1x1 v27 shapeCasts_S1x1_S1x1)
          (shapeCast S1x1 (multiReduction .add [0] S1 (lossColumn x3 x0 x1 x2) 0x00000000#32 reduces_S2048x1_S1 (.inl rfl) rfl)
            shapeCasts_S1_S1x1) := rfl

/-- THE STORED ELEMENT: the running value plus the sum of the block's 2048 row losses. -/
theorem pay2_apply (x3 : Vec Ideal S1x384 .f32) (x0 x1 x2 : Vec Ideal S2048x384 .f32) (v27 : Vec Ideal S1x1 .f32) :
    k0_pay2 x3 x0 x1 x2 v27 (ix2 (0 : Fin 1) (0 : Fin 1))
      = v27 (ix2 (0 : Fin 1) (0 : Fin 1))
        + ∑ q : Fin 2048, hinge (fun d => x3 (ix2 (0 : Fin 1) d)) (fun d => x0 (ix2 q d)) (fun d => x1 (ix2 q d))
            (fun d => x2 (ix2 q d)) := by
  rw [pay2_eq]
  show shapeCast S1x1 v27 shapeCasts_S1x1_S1x1 (ix2 (0 : Fin 1) (0 : Fin 1))
      + shapeCast S1x1 (multiReduction .add [0] S1 (lossColumn x3 x0 x1 x2) 0x00000000#32 reduces_S2048x1_S1 (.inl rfl) rfl)
          shapeCasts_S1_S1x1 (ix2 (0 : Fin 1) (0 : Fin 1)) = _
  rw [shapeCast_self, Cert.Lib.Column.shapeCast_a_a1_apply]
  refine congrArg (_ + ·) ?_
  have key : ∀ q : Fin 2048, lossColumn x3 x0 x1 x2 (reduces_S2048x1_S1.lift (ix1 (0 : Fin 1)) q)
      = hinge (fun d => x3 (ix2 (0 : Fin 1) d)) (fun d => x0 (ix2 q d)) (fun d => x1 (ix2 q d)) (fun d => x2 (ix2 q d)) := fun q => by
    have e : reduces_S2048x1_S1.lift (ix1 (0 : Fin 1)) q = ix2 q (0 : Fin 1) :=
      funext fun a => Fin.ext (by match a with | ⟨0, _⟩ => rfl | ⟨1, _⟩ => rfl)
    rw [e]
    exact lossColumn_apply x3 x0 x1 x2 q
  refine (Ideal.multiReduction_add_single _ _ reduces_S2048x1_S1 _ _ (ix1 (0 : Fin 1))).trans ?_
  exact Finset.sum_congr rfl fun q _ => key q

end Cert.KernelIdeal.Body

end
-- ==== Proof.Pieces.lean ====
/-
  What one run of the body leaves at element (0, 0) of the output block.

  At a first block of a run the body fills the block with zeros and then stores, at (0, 0), the zero it reads back
  plus the block's sum of row losses: the element ends at that sum. At any other block it reads the element, adds the
  block's sum and stores it back: the element ends at its previous value plus that sum. Nothing else of the block is
  touched after the fill, and nothing else of it is read after the run.
-/
import proofs.«169795_j4234837754127_2_alg».proof.Proof.Gen.KernelIdeal.Frame
import proofs.«169795_j4234837754127_2_alg».proof.Proof.Payload
import Idealize.ShloMosaic.Lib.Pipeline.Value
import Idealize.ShloMosaic.Lib.WritesUnit
import Idealize.ShloMosaic.Lib.Tactic

noncomputable section

namespace Cert.KernelIdeal.Body

open Cert.KernelIdeal Cert.KernelIdeal.Gen Idealize.ShloMosaic Idealize.ShloMosaic.TcCoe Idealize.ShloMosaic.ValueIdx
open Idealize.SL.Sem
open Cert.Triplet

theorem zeros2 : (![0, 0] : Fin 2 → Nat) = fun _ => 0 := funext fun a => by fin_cases a <;> rfl

/-- The sum of the row losses of a block of 2048 rows held in the body's four input buffers. -/
def blockLoss (x0 x1 x2 : Vec Ideal S2048x384 .f32) (x3 : Vec Ideal S1x384 .f32) : EReal :=
  ∑ q : Fin 2048, hinge (fun d => x3 (ix2 (0 : Fin 1) d)) (fun d => x0 (ix2 q d)) (fun d => x1 (ix2 q d)) (fun d => x2 (ix2 q d))

/-- A FIRST BLOCK: the element ends at the block's sum. -/
theorem out_first (c : Dev nD) (i : grid0.Coords) (arg2 : Memref sig .tc .vmem S2048x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S1x384 .f32) (harg5 : arg5.IsWhole) (arg6 : Memref sig .tc .vmem S8x128 .f32) (harg6 : arg6.IsWhole) (hc0 : cond0_0 i)
    (x0 x1 x2 : Vec Ideal S2048x384 .f32) (x3 : Vec Ideal S1x384 .f32) :
    out0_A_4 (F := Ideal) c i arg2 harg2 arg3 harg3 arg4 harg4 arg5 harg5 arg6 harg6 hc0 x0 x1 x2 x3 (ix2 (0 : Fin 8) (0 : Fin 128))
      = blockLoss x0 x1 x2 x3 := by
  unfold out0_A_4
  unfold kernelRun0_A
  dsimp only
  sl_unfold_words
  refine (View.read_writes_cons_unit_of_mem _ _ _ _ _ (ix2 (0 : Fin 8) (0 : Fin 128)) (ix2 (0 : Fin 1) (0 : Fin 1)) rfl
    (fun a => by match a with | ⟨0, _⟩ => rfl | ⟨1, _⟩ => rfl)).trans ?_
  simp only [View.readAt_eq_ld, harg2.read_unread, harg3.read_unread, harg4.read_unread, harg5.read_unread,
    View.ld_unit_zero (S := S2048x384) zeros2, View.ld_unit_zero (S := S1x384) zeros2]
  refine (pay2_apply _ _ _ _ _).trans ?_
  rw [View.readCov_eq_canon', View.canon_unit_zero zeros2]
  show Ideal.ofBits .f32 0x00000000#32 + _ = _
  rw [Ideal.ofBits_zero_f32, zero_add]
  rfl

/-- ANY OTHER BLOCK: the element ends at what it held plus the block's sum. -/
theorem out_next (c : Dev nD) (i : grid0.Coords) (arg2 : Memref sig .tc .vmem S2048x384 .f32) (harg2 : arg2.IsWhole) (arg3 : Memref sig .tc .vmem S2048x384 .f32) (harg3 : arg3.IsWhole) (arg4 : Memref sig .tc .vmem S2048x384 .f32) (harg4 : arg4.IsWhole) (arg5 : Memref sig .tc .vmem S1x384 .f32) (harg5 : arg5.IsWhole) (arg6 : Memref sig .tc .vmem S8x128 .f32) (harg6 : arg6.IsWhole) (hc0 : ¬cond0_0 i)
    (x0 x1 x2 : Vec Ideal S2048x384 .f32) (x3 : Vec Ideal S1x384 .f32) (xo4 : Vec Ideal S8x128 .f32) :
    out0_B_4 (F := Ideal) c i arg2 harg2 arg3 harg3 arg4 harg4 arg5 harg5 arg6 harg6 hc0 x0 x1 x2 x3 xo4 (ix2 (0 : Fin 8) (0 : Fin 128))
      = xo4 (ix2 (0 : Fin 8) (0 : Fin 128)) + blockLoss x0 x1 x2 x3 := by
  unfold out0_B_4
  unfold kernelRun0_B
  dsimp only
  sl_unfold_words
  refine (View.read_writes_cons_unit_of_mem _ _ _ _ _ (ix2 (0 : Fin 8) (0 : Fin 128)) (ix2 (0 : Fin 1) (0 : Fin 1)) rfl
    (fun a => by match a with | ⟨0, _⟩ => rfl | ⟨1, _⟩ => rfl)).trans ?_
  simp only [View.readAt_eq_ld, harg2.read_unread, harg3.read_unread, harg4.read_unread, harg5.read_unread, harg6.read_unread,
    View.ld_unit_zero (S := S2048x384) zeros2, View.ld_unit_zero (S := S1x384) zeros2]
  refine (pay2_apply _ _ _ _ _).trans ?_
  refine congrArg (· + blockLoss x0 x1 x2 x3) ?_
  show xo4 _ = xo4 _
  refine congrArg xo4 (funext fun a => Fin.ext ?_)
  match a with
  | ⟨0, _⟩ => rfl
  | ⟨1, _⟩ => rfl

end Cert.KernelIdeal.Body

end
-- ==== Proof.Blocks.lean ====
/-
  The blocks the body is given, read at an element of the argument arrays.

  At grid point t the three row windows hold rows 2048 t, …, 2048 t + 2047 of the anchor, positive and negative arrays
  (their block index along the rows is t itself, along the lanes 0), and the weight window holds the one row of the
  exponential of the weight vector, computed before the region and laid out as a 1-by-384 array.
-/
import proofs.«169795_j4234837754127_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The row windows' block index at point t is (t, 0); the weight window's is (0, 0); the output window's is (t / 32, 0). -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

/-- Row 2048 t + q is a row of the arrays. -/
theorem row_lt (t : Fin cfg0.N) (q : Fin 2048) : 2048 * t.val + q.val < 131072 := by
  have hN : t.val < 64 := lt_of_lt_of_eq t.isLt (show cfg0.N = 64 from N_0)
  have := q.isLt
  omega

/-- Element (q, d) of the anchor block at point t is the anchor array's element (2048 t + q, d). -/
theorem iblk0_apply (c : Dev nD) (t : Fin cfg0.N) (q : Fin 2048) (d : Fin 384) :
    (iblk m c 0 t : Vec Ideal S2048x384 .f32) (ix2 q d)
      = m ((c : Thread nD τ).loc main_arg0) (ix2 (⟨2048 * t.val + q.val, row_lt t q⟩ : Fin 131072) d) := by
  obtain ⟨h0, h1⟩ := index0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 2048 + 1 * q.val = 2048 * t.val + q.val; rw [h0]; omega
  | ⟨1, _⟩ => show win0_0.index t 1 * 384 + 1 * d.val = d.val; rw [h1]; omega

/-- The same of the positive block. -/
theorem iblk1_apply (c : Dev nD) (t : Fin cfg0.N) (q : Fin 2048) (d : Fin 384) :
    (iblk m c 1 t : Vec Ideal S2048x384 .f32) (ix2 q d)
      = m ((c : Thread nD τ).loc main_arg1) (ix2 (⟨2048 * t.val + q.val, row_lt t q⟩ : Fin 131072) d) := by
  obtain ⟨h0, h1⟩ := index1 t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2048 + 1 * q.val = 2048 * t.val + q.val; rw [h0]; omega
  | ⟨1, _⟩ => show win0_1.index t 1 * 384 + 1 * d.val = d.val; rw [h1]; omega

/-- The same of the negative block. -/
theorem iblk2_apply (c : Dev nD) (t : Fin cfg0.N) (q : Fin 2048) (d : Fin 384) :
    (iblk m c 2 t : Vec Ideal S2048x384 .f32) (ix2 q d)
      = m ((c : Thread nD τ).loc main_arg2) (ix2 (⟨2048 * t.val + q.val, row_lt t q⟩ : Fin 131072) d) := by
  obtain ⟨h0, h1⟩ := index2 t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * q.val = 2048 * t.val + q.val; rw [h0]; omega
  | ⟨1, _⟩ => show win0_2.index t 1 * 384 + 1 * d.val = d.val; rw [h1]; omega

/-- The weight array as the region finds it: the exponential of the weight vector, as one row. -/
theorem V_weights (c : Dev nD) :
    (V m c main_v1 : S1x384.Idx → EReal)
      = shapeCast S1x384 (Host.exp (F := Ideal) (s := S384) (φ := .f32) (m ((c : Thread nD τ).loc main_arg3))) shapeCasts_S384_S1x384 := by
  show StableHlo.after hostOps0 (fun b => m (c, b)) (Proc.devRef .tc main_v1) = _
  after_results
  rfl

/-- Element (0, d) of the weight block at any point is the exponential of the weight vector's element d. -/
theorem iblk3_apply (c : Dev nD) (t : Fin cfg0.N) (d : Fin 384) :
    (iblk m c 3 t : Vec Ideal S1x384 .f32) (ix2 (0 : Fin 1) d)
      = Ideal.exp (m ((c : Thread nD τ).loc main_arg3) (ix1 d)) := by
  obtain ⟨h0, h1⟩ := index3 t
  unfold iblk
  rw [View.read_apply]
  show (V m c main_v1 : S1x384.Idx → EReal) _ = _
  rw [V_weights]
  have e : ∀ i : S1x384.Idx, (i 1).val = d.val → shapeCast S1x384 (Host.exp (F := Ideal) (s := S384) (φ := .f32) (m ((c : Thread nD τ).loc main_arg3))) shapeCasts_S384_S1x384 i
      = Ideal.exp (m ((c : Thread nD τ).loc main_arg3) (ix1 d)) := fun i hi => by
    obtain ⟨u, k, rfl⟩ : ∃ (u : Fin 1) (k : Fin 384), i = ix2 u k := ⟨i 0, i 1, eq_ix2 i⟩
    obtain rfl : k = d := Fin.ext hi
    obtain rfl : u = 0 := Subsingleton.elim _ _
    rw [shapeCast_a_1a_apply]
    rfl
  refine e _ ?_
  show win0_3.index t 1 * 384 + 1 * d.val = d.val
  rw [h1]; omega

end Cert.KernelIdeal.Blocks

end
-- ==== Proof.Accumulate.lean ====
/-
  Across the grid, element (0, 0) of the output block is the running sum of row losses of the current run of 32
  blocks: grid point t = 32 c + i is block t of 2048 rows, a run restarts where i = 0, and each point adds its block's
  sum of row losses to what the point before left. By induction on the point.
-/
import proofs.«169795_j4234837754127_2_alg».proof.Proof.Pieces
import proofs.«169795_j4234837754127_2_alg».proof.Proof.Blocks

noncomputable section

namespace Cert.KernelIdeal.Acc

open Cert.KernelIdeal Cert.KernelIdeal.Gen Idealize.ShloMosaic Idealize.ShloMosaic.TcCoe Idealize.ShloMosaic.ValueIdx
open Idealize.SL.Sem
open Cert.Triplet Cert.Lib.BlockSum Cert.KernelIdeal.Body Cert.KernelIdeal.Blocks

variable (m : (ℓ : Loc nD τ sig) → Buf (Elt Ideal) ℓ)

/-- The rows' losses of the argument arrays on core c, as a family on the naturals (zero past the last row). -/
def losses (c : Dev nD) : ℕ → EReal :=
  ext0 (rowLoss (m ((c : Thread nD τ).loc main_arg0)) (m ((c : Thread nD τ).loc main_arg1))
    (m ((c : Thread nD τ).loc main_arg2)) (m ((c : Thread nD τ).loc main_arg3)))

/-- The sum of row losses of the blocks the body holds at point t is the sum of block t's 2048 rows' losses. -/
theorem blockLoss_eq (c : Dev nD) (t : Fin cfg0.N) :
    blockLoss (iblk m c 0 t) (iblk m c 1 t) (iblk m c 2 t) (iblk m c 3 t) = blockSum (losses m c) t.val := by
  unfold blockLoss blockSum losses
  refine Finset.sum_congr rfl fun q _ => ?_
  rw [ext0_of_lt _ _ (row_lt t q)]
  unfold rowLoss
  simp only [iblk0_apply, iblk1_apply, iblk2_apply, iblk3_apply]

/-- THE RUNNING SUM: after point n the element holds the accumulator of the row losses at block n. -/
theorem outsAt_eq (c : Dev nD) : ∀ (n : ℕ) (h : n < cfg0.N),
    outsAt0 m c n h (ix2 (0 : Fin 8) (0 : Fin 128)) = acc (losses m c) n
  | 0, h => by
    rw [acc_first _ 0 rfl]
    refine (congrFun (outsAt0_A m c ⟨0, h⟩ rfl) _).trans ?_
    exact (out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) ((hcond0_0 ⟨0, h⟩).mpr rfl)
      (iblk m c 0 ⟨0, h⟩) (iblk m c 1 ⟨0, h⟩) (iblk m c 2 ⟨0, h⟩) (iblk m c 3 ⟨0, h⟩)).trans (blockLoss_eq m c ⟨0, h⟩)
  | n + 1, h => by
    by_cases h0 : (n + 1) % 32 = 0
    · rw [acc_first _ _ h0]
      refine (congrFun (outsAt0_A m c ⟨n + 1, h⟩ h0) _).trans ?_
      exact (out_first c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        ((hcond0_0 ⟨n + 1, h⟩).mpr h0)
        (iblk m c 0 ⟨n + 1, h⟩) (iblk m c 1 ⟨n + 1, h⟩) (iblk m c 2 ⟨n + 1, h⟩) (iblk m c 3 ⟨n + 1, h⟩)).trans
        (blockLoss_eq m c ⟨n + 1, h⟩)
    · rw [acc_next _ _ h0, Nat.add_sub_cancel]
      refine (congrFun (outsAt0_B m c ⟨n + 1, h⟩ h0) _).trans ?_
      refine (out_next c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hc => h0 ((hcond0_0 ⟨n + 1, h⟩).mp hc))
        (iblk m c 0 ⟨n + 1, h⟩) (iblk m c 1 ⟨n + 1, h⟩) (iblk m c 2 ⟨n + 1, h⟩) (iblk m c 3 ⟨n + 1, h⟩)
        (outsAt0 m c ((⟨n + 1, h⟩ : Fin cfg0.N).val - 1) (Nat.lt_of_le_of_lt (Nat.sub_le _ _) (⟨n + 1, h⟩ : Fin cfg0.N).isLt))).trans ?_
      rw [blockLoss_eq m c ⟨n + 1, h⟩]
      refine congrArg (· + blockSum (losses m c) (n + 1)) ?_
      exact outsAt_eq c n (Nat.lt_of_succ_lt h)

end Cert.KernelIdeal.Acc

end
-- ==== Proof.Final.lean ====
/-
  The kernel's result. The output array [16, 128] is written back twice: after point 31 its rows 0–7 take the first
  run's block, after point 63 its rows 8–15 the second run's. The lines after the region read elements (0, 0) and
  (8, 0), add them and divide by 131072: the two runs' last running sums together are the sum of all the rows' losses.
-/
import proofs.«169795_j4234837754127_2_alg».proof.Proof.Accumulate
import Idealize.ShloMosaic.Lib.Pipeline.Value
import Idealize.ShloMosaic.Lib.StableHlo.Run
import Idealize.ShloMosaic.Lib.Tactic

noncomputable section

namespace Cert.KernelIdeal.Final

open Cert.KernelIdeal Cert.KernelIdeal.Gen Idealize.ShloMosaic Idealize.ShloMosaic.TcCoe Idealize.ShloMosaic.ValueIdx
open Idealize.SL.Sem
open Idealize.ShloMosaic.Pipeline (Dat)
open Cert.Triplet Cert.Lib.BlockSum Cert.KernelIdeal.Body Cert.KernelIdeal.Blocks Cert.KernelIdeal.Acc

variable (m : (ℓ : Loc nD τ sig) → Buf (Elt Ideal) ℓ) (ρ : Dev nD → PrngReg)

/-! ## The lines after the region, as a function of the output array -/

/-- Slice the elements (0, 0) and (8, 0), add, divide by the float word of 131072.0. -/
theorem tail_apply (X : FVec Ideal S16x128 .f32) (i : S_.Idx) :
    Host.divf (F := Ideal)
        (addf (shapeCast S_ (extractStridedSlice S1x1 ![0, 0] X slices_S16x128_S1x1_0_0) shapeCasts_S1x1_S_)
          (shapeCast S_ (extractStridedSlice S1x1 ![8, 0] X slices_S16x128_S1x1_8_0) shapeCasts_S1x1_S_))
        (constant S_ .f32 0x48000000#32) i
      = Ideal.div (X (ix2 (0 : Fin 16) (0 : Fin 128)) + X (ix2 (8 : Fin 16) (0 : Fin 128))) (Ideal.ofBits .f32 0x48000000#32) := by
  show Ideal.div
      (shapeCast S_ (extractStridedSlice S1x1 ![0, 0] X slices_S16x128_S1x1_0_0) shapeCasts_S1x1_S_ i
        + shapeCast S_ (extractStridedSlice S1x1 ![8, 0] X slices_S16x128_S1x1_8_0) shapeCasts_S1x1_S_ i) _ = _
  rw [shapeCast_apply _ shapeCasts_S1x1_S_ i (ix2 (0 : Fin 1) (0 : Fin 1)) rfl,
    shapeCast_apply _ shapeCasts_S1x1_S_ i (ix2 (0 : Fin 1) (0 : Fin 1)) rfl]
  have e0 : extractStridedSlice S1x1 ![0, 0] X slices_S16x128_S1x1_0_0 (ix2 (0 : Fin 1) (0 : Fin 1)) = X (ix2 (0 : Fin 16) (0 : Fin 128)) := by
    unfold extractStridedSlice
    exact congrArg X (funext fun a => Fin.ext (by match a with | ⟨0, _⟩ => rfl | ⟨1, _⟩ => rfl))
  have e8 : extractStridedSlice S1x1 ![8, 0] X slices_S16x128_S1x1_8_0 (ix2 (0 : Fin 1) (0 : Fin 1)) = X (ix2 (8 : Fin 16) (0 : Fin 128)) := by
    unfold extractStridedSlice
    exact congrArg X (funext fun a => Fin.ext (by match a with | ⟨0, _⟩ => rfl | ⟨1, _⟩ => rfl))
  rw [e0, e8]
  rfl

/-! ## The output array after the run -/

/-- The two points that write back are 31 and 63, and their blocks are rows 0–7 and rows 8–15: disjoint. -/
theorem blocks_disjoint : ∀ t t' : Fin cfg0.N, (cfg0.win 4).flush t = true → (cfg0.win 4).flush t' = true → t ≠ t' →
    Disjoint ((cfg0.win 4).blk t).view.set ((cfg0.win 4).blk t').view.set := fun t t' hf hf' hne => by
  have h := (flush0_4 t).mp hf
  have h' := (flush0_4 t').mp hf'
  have hN : t.val < 64 := lt_of_lt_of_eq t.isLt (show cfg0.N = 64 from N_0)
  have hN' : t'.val < 64 := lt_of_lt_of_eq t'.isLt (show cfg0.N = 64 from N_0)
  refine win0_4.disjoint_blk (fun e => hne (Fin.ext ?_))
  have e0 := congrFun e (0 : Fin 2)
  rw [(index4 t).1, (index4 t').1] at e0
  omega

/-- Under a point that writes back, element (0, 0) of its block ends at the running sum at that point. -/
theorem arr_at (c : Dev nD) (t : Fin cfg0.N) (hf : t.val % 32 = 31) :
    (dats m 0 c).arrAt 4 cfg0.N (((cfg0.win 4).blk t).view.emb (ix2 (0 : Fin 8) (0 : Fin 128))) = acc (losses m c) t.val := by
  rw [Dat.arrAt_emb_eq_flushed (dats m 0 c) 4 blocks_disjoint t ((flush0_4 t).mpr hf) (ix2 (0 : Fin 8) (0 : Fin 128))]
  show (dats m 0 c).after 4 t (ix2 (0 : Fin 8) (0 : Fin 128)) = _
  rw [after0_4]
  exact outsAt_eq m c t.val t.isLt

/-- Grid point n, for n < 64. -/
def pt (n : ℕ) (h : n < 64) : Fin cfg0.N := ⟨n, lt_of_lt_of_eq h (show cfg0.N = 64 from N_0).symm⟩

/-- The last points of the two runs. -/
abbrev t31 : Fin cfg0.N := pt 31 (by decide)
abbrev t63 : Fin cfg0.N := pt 63 (by decide)

theorem emb31 : ((cfg0.win 4).blk t31).view.emb (ix2 (0 : Fin 8) (0 : Fin 128)) = (ix2 (0 : Fin 16) (0 : Fin 128) : S16x128.Idx) := by
  obtain ⟨h0, h1⟩ := index4 t31
  refine funext fun a => Fin.ext ?_
  match a with
  | ⟨0, _⟩ => show win0_4.index t31 0 * 8 + 1 * 0 = 0; rw [h0]; rfl
  | ⟨1, _⟩ => show win0_4.index t31 1 * 128 + 1 * 0 = 0; rw [h1]

theorem emb63 : ((cfg0.win 4).blk t63).view.emb (ix2 (0 : Fin 8) (0 : Fin 128)) = (ix2 (8 : Fin 16) (0 : Fin 128) : S16x128.Idx) := by
  obtain ⟨h0, h1⟩ := index4 t63
  refine funext fun a => Fin.ext ?_
  match a with
  | ⟨0, _⟩ => show win0_4.index t63 0 * 8 + 1 * 0 = 8; rw [h0]; rfl
  | ⟨1, _⟩ => show win0_4.index t63 1 * 128 + 1 * 0 = 0; rw [h1]

theorem arr_first (c : Dev nD) : (dats m 0 c).arrAt 4 cfg0.N (ix2 (0 : Fin 16) (0 : Fin 128)) = acc (losses m c) 31 := by
  have e := arr_at m c t31 rfl
  rw [emb31] at e
  exact e

theorem arr_second (c : Dev nD) : (dats m 0 c).arrAt 4 cfg0.N (ix2 (8 : Fin 16) (0 : Fin 128)) = acc (losses m c) 63 := by
  have e := arr_at m c t63 rfl
  rw [emb63] at e
  exact e

/-! ## The result -/

/-- After the lines that follow the region the result buffer holds the specification's result of the arguments. -/
theorem tail_eq (c : Dev nD) :
    Pipeline.afterTail₀ cfgs (dats m) 0 (V0 m) [hostOps1] c main_v8
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v8) = _
  after_results
  have hA : Pipeline.withArrays (cfgs 0).spec c (V0 m c) (fun w => (dats m 0 c).arrAt w (cfgs 0).N) (Proc.devRef .tc main_v2)
      = (dats m 0 c).arrAt 4 cfg0.N := Pipeline.withArrays_arr spec0 launch0.win.arr_inj c _ _ 4
  funext i
  refine (tail_apply _ i).trans ?_
  rw [congrFun hA, congrFun hA, arr_first, arr_second]
  unfold result
  refine congrArg (Ideal.div · (Ideal.ofBits .f32 0x48000000#32)) ?_
  exact acc_total_rows _

/-- THE KERNEL'S RUN, READ: every weakly fair execution terminates with the result buffer at the specification's result
    of the argument arrays, and the arguments unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v8 (Pipeline.mem_restRefs_of main_v8 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c)⟩)
    (run_main m ρ)

end Cert.KernelIdeal.Final

end
-- ==== Proof.lean ====
/- The proof of `Cert.Claim` (proofs.«169795_j4234837754127_2_alg».proof.Defs).

   The kernel computes a weighted triplet loss: with w = exp(W), for every row r of the three [131072, 384] arrays
   the row loss max(Σ_d w_d (a_d - p_d)² - Σ_d w_d (a_d - n_d)² + 1, 0), then the mean of the row losses. The kernel
   sums the row losses in two runs of 32 blocks of 2048 rows, each run accumulated block after block into one element of
   its own output block; the lines after the region add the two runs' sums and divide by 131072. The reference sums the
   131072 row losses at once and divides by 131072. On the extended reals the two are one number: a square is grouped
   (w·x)·x on one side and w·(x·x) on the other (multiplication is associative), and a sum taken in consecutive blocks
   is the sum (addition is commutative and associative); no finiteness of the inputs is used.

   Proof/Spec.lean states the loss and the block algebra; Proof/RefValue.lean reads the reference's run as the loss;
   Proof/Payload.lean, Pieces.lean, Blocks.lean, Accumulate.lean and Final.lean read the kernel's run as the loss. The
   three frames are the generated runs; the idealization rewrote nothing. -/
import proofs.«169795_j4234837754127_2_alg».proof.Defs
import proofs.«169795_j4234837754127_2_alg».proof.Proof.Gen.Kernel
import proofs.«169795_j4234837754127_2_alg».proof.Proof.Gen.Kernel.Skeleton
import proofs.«169795_j4234837754127_2_alg».proof.Proof.Gen.Kernel.Launch
import proofs.«169795_j4234837754127_2_alg».proof.Proof.Gen.Kernel.Points
import proofs.«169795_j4234837754127_2_alg».proof.Proof.Gen.Kernel.Frame
import proofs.«169795_j4234837754127_2_alg».proof.Proof.Gen.KernelIdeal
import proofs.«169795_j4234837754127_2_alg».proof.Proof.Gen.KernelIdeal.Skeleton
import proofs.«169795_j4234837754127_2_alg».proof.Proof.Gen.KernelIdeal.Launch
import proofs.«169795_j4234837754127_2_alg».proof.Proof.Gen.KernelIdeal.Points
import proofs.«169795_j4234837754127_2_alg».proof.Proof.Gen.KernelIdeal.Frame
import proofs.«169795_j4234837754127_2_alg».proof.Proof.Gen.ReferenceIdeal
import proofs.«169795_j4234837754127_2_alg».proof.Proof.Gen.ReferenceIdeal.Run
import proofs.«169795_j4234837754127_2_alg».proof.Proof.Gen.ReferenceIdeal.Read
import proofs.«169795_j4234837754127_2_alg».proof.Proof.Gen.Pre_finite_inputs
import proofs.«169795_j4234837754127_2_alg».proof.Proof.RefValue
import proofs.«169795_j4234837754127_2_alg».proof.Proof.Final
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the mean of the row losses of the arguments. -/
theorem algebraic : Cert.algebraic_KernelIdeal_ReferenceIdeal := by
  intro m ρ m' ρ' _ hagree
  refine ⟨fun c => Cert.Triplet.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v18_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
